-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S4x16 : Shape := ⟨2, ![4, 16]⟩
abbrev S16 : Shape := ⟨1, ![16]⟩
abbrev S16x8 : Shape := ⟨2, ![16, 8]⟩
abbrev S8 : Shape := ⟨1, ![8]⟩
abbrev S8x3 : Shape := ⟨2, ![8, 3]⟩
abbrev S3 : Shape := ⟨1, ![3]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S8 .f32) (main_arg5 : FVec F S8x3 .f32) (main_arg6 : FVec F S3 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x3 .f32 := Host.absf main_arg5
  let main_cst_8 : FVec F S_ .f32 := constant S_ .f32 0x7F800000#32
  let main_v25 : FVec F S8x3 .f32 := broadcastInDim S8x3 ![] bcast_S_S8x3 main_cst_8
  let main_v26 : IVec S8x3 1 := cmpf .olt main_v24 main_v25
  let main_c_9 : IVec S_ 1 := constantI S_ 1 1#1
  let main_v27 : IVec S_ 1 := (fun x v => Host.reduce IntOp.andi x v reducesTo_S8x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S2000000x4 .f32) (main_arg1 : FVec F S4x16 .f32) (main_arg2 : FVec F S16 .f32) (main_arg3 : FVec F S16x8 .f32) (main_arg4 : FVec F S8 .f32) (main_arg5 : FVec F S8x3 .f32) (main_arg6 : FVec F S3 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  let main_v4 : FVec F S4x16 .f32 := Host.absf main_arg1
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_arg5 main_arg6 main_v13 main_v16
-- ==== Kernel.lean ====
abbrev S2000000x4 : Shape := ⟨2, ![2000000, 4]⟩
abbrev S4x16 : Shape := ⟨2, ![4, 16]⟩
abbrev S16 : Shape := ⟨1, ![16]⟩
abbrev S16x8 : Shape := ⟨2, ![16, 8]⟩
abbrev S8 : Shape := ⟨1, ![8]⟩
abbrev S8x3 : Shape := ⟨2, ![8, 3]⟩
abbrev S3 : Shape := ⟨1, ![3]⟩
abbrev S4x2000000 : Shape := ⟨2, ![4, 2000000]⟩
abbrev S16x4 : Shape := ⟨2, ![16, 4]⟩
abbrev S8x16 : Shape := ⟨2, ![8, 16]⟩
abbrev S3x8 : Shape := ⟨2, ![3, 8]⟩
abbrev S16x1 : Shape := ⟨2, ![16, 1]⟩
abbrev S8x1 : Shape := ⟨2, ![8, 1]⟩
abbrev S3x1 : Shape := ⟨2, ![3, 1]⟩
abbrev S3x2000000 : Shape := ⟨2, ![3, 2000000]⟩
abbrev S4x80000 : Shape := ⟨2, ![4, 80000]⟩
abbrev S3x80000 : Shape := ⟨2, ![3, 80000]⟩
abbrev S16x80000 : Shape := ⟨2, ![16, 80000]⟩
abbrev S8x80000 : Shape := ⟨2, ![8, 80000]⟩
abbrev S2000000x3 : Shape := ⟨2, ![2000000, 3]⟩

abbrev nBuf : Space → Nat
  | .hbm => 16
  | .vmem => 10
  | .smem => 0
  | _ => 0

abbrev bufTy : (tb : Table) → Fin (tcTables nBuf tb) → BufTy
  | .hbm, ⟨0, _⟩ => ⟨S2000000x4, .f32⟩
  | .hbm, ⟨1, _⟩ => ⟨S4x16, .f32⟩
  | .hbm, ⟨2, _⟩ => ⟨S16, .f32⟩
  | .hbm, ⟨3, _⟩ => ⟨S16x8, .f32⟩
  | .hbm, ⟨4, _⟩ => ⟨S8, .f32⟩
  | .hbm, ⟨5, _⟩ => ⟨S8x3, .f32⟩
  | .hbm, ⟨6, _⟩ => ⟨S3, .f32⟩
  | .hbm, ⟨7, _⟩ => ⟨S4x2000000, .f32⟩
  | .hbm, ⟨8, _⟩ => ⟨S16x4, .f32⟩
  | .hbm, ⟨9, _⟩ => ⟨S8x16, .f32⟩
  | .hbm, ⟨10, _⟩ => ⟨S3x8, .f32⟩
  | .hbm, ⟨11, _⟩ => ⟨S16x1, .f32⟩
  | .hbm, ⟨12, _⟩ => ⟨S8x1, .f32⟩
  | .hbm, ⟨13, _⟩ => ⟨S3x1, .f32⟩
  | .hbm, ⟨14, _⟩ => ⟨S3x2000000, .f32⟩
  | .hbm, ⟨15, _⟩ => ⟨S2000000x3, .f32⟩
  | .local _ .vmem, ⟨0, _⟩ => ⟨S4x80000, .f32⟩
  | .local _ .vmem, ⟨1, _⟩ => ⟨S4x80000, .f32⟩
  | .local _ .vmem, ⟨2, _⟩ => ⟨S16x4, .f32⟩
  | .local _ .vmem, ⟨3, _⟩ => ⟨S16x1, .f32⟩
  | .local _ .vmem, ⟨4, _⟩ => ⟨S8x16, .f32⟩
  | .local _ .vmem, ⟨5, _⟩ => ⟨S8x1, .f32⟩
  | .local _ .vmem, ⟨6, _⟩ => ⟨S3x8, .f32⟩
  | .local _ .vmem, ⟨7, _⟩ => ⟨S3x1, .f32⟩
  | .local _ .vmem, ⟨8, _⟩ => ⟨S3x80000, .f32⟩
  | .local _ .vmem, ⟨9, _⟩ => ⟨S3x80000, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x80000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2000000x4_S4x2000000_1_0 : S2000000x4.Transposes [1, 0] S4x2000000
  transposes_S4x16_S16x4_1_0 : S4x16.Transposes [1, 0] S16x4
  transposes_S16x8_S8x16_1_0 : S16x8.Transposes [1, 0] S8x16
  transposes_S8x3_S3x8_1_0 : S8x3.Transposes [1, 0] S3x8
  shapeCasts_S16_S16x1 : S16.ShapeCasts S16x1
  shapeCasts_S8_S8x1 : S8.ShapeCasts S8x1
  shapeCasts_S3_S3x1 : S3.ShapeCasts S3x1
  inb_S4x80000_S4x80000_0_0 : ∀ a, (![0, 0] : Fin 2 → Nat) a + S4x80000.size a ≤ S4x80000.size a
  h_S4x80000 : 0 < S4x80000.numel
  shapeCasts_S4x80000_S4x80000 : S4x80000.ShapeCasts S4x80000
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x80000 : S16x1.Broadcasts S16x80000
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x80000 : S8x1.Broadcasts S8x80000
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x80000 : S3x1.Broadcasts S3x80000
  inb_S3x80000_S3x80000_0_0 : ∀ a, (![0, 0] : Fin 2 → Nat) a + S3x80000.size a ≤ S3x80000.size a
  h_S3x80000 : 0 < S3x80000.numel
  transposes_S3x2000000_S2000000x3_1_0 : S3x2000000.Transposes [1, 0] S2000000x3
  dot_S16x4_S4x80000_S16x80000_1_0_0_1_n_n_wf : DotDims.WF S16x4 S4x80000 S16x80000 [1] [0] [0] [1] [] []
  dot_S8x16_S16x80000_S8x80000_1_0_0_1_n_n_wf : DotDims.WF S8x16 S16x80000 S8x80000 [1] [0] [0] [1] [] []
  dot_S3x8_S8x80000_S3x80000_1_0_0_1_n_n_wf : DotDims.WF S3x8 S8x80000 S3x80000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x80000.size a ≤ S4x2000000.size a
  hwx0_0 : ∀ i : grid0.Coords, EltTy.bits .f32 = 32 ∨ (Rect.block (s := S4x2000000) S4x80000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S16x4.size a
  hwx0_1 : ∀ i : grid0.Coords, EltTy.bits .f32 = 32 ∨ (Rect.block (s := S16x4) S16x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x8.size a ≤ S3x8.size a
  hwx0_5 : ∀ i : grid0.Coords, EltTy.bits .f32 = 32 ∨ (Rect.block (s := S3x8) S3x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x80000.size a ≤ S3x2000000.size a
  hwx0_7 : ∀ i : grid0.Coords, EltTy.bits .f32 = 32 ∨ (Rect.block (s := S3x2000000) S3x80000.size (cc0_transform_7 i) (hinb0_7 i)).WholeWords (EltTy.packing .f32)

variable [Facts₀]

def dot_S16x4_S4x80000_S16x80000_1_0_0_1_n_n : DotDims S16x4 S4x80000 S16x80000 where
  lhsContracting := [1]
  rhsContracting := [0]
  lhsNonContracting := [0]
  rhsNonContracting := [1]
  lhsBatch := []
  rhsBatch := []
  wf := dot_S16x4_S4x80000_S16x80000_1_0_0_1_n_n_wf
def dot_S8x16_S16x80000_S8x80000_1_0_0_1_n_n : DotDims S8x16 S16x80000 S8x80000 where
  lhsContracting := [1]
  rhsContracting := [0]
  lhsNonContracting := [0]
  rhsNonContracting := [1]
  lhsBatch := []
  rhsBatch := []
  wf := dot_S8x16_S16x80000_S8x80000_1_0_0_1_n_n_wf
def dot_S3x8_S8x80000_S3x80000_1_0_0_1_n_n : DotDims S3x8 S8x80000 S3x80000 where
  lhsContracting := [1]
  rhsContracting := [0]
  lhsNonContracting := [0]
  rhsNonContracting := [1]
  lhsBatch := []
  rhsBatch := []
  wf := dot_S3x8_S8x80000_S3x80000_1_0_0_1_n_n_wf

abbrev win0_0 : Pipeline.Window sig grid0 :=
  Pipeline.Window.ofSpec (Memref.whole main_v0) S4x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S3x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S3x80000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S4x16 : Shape := ⟨2, ![4, 16]⟩
abbrev S16 : Shape := ⟨1, ![16]⟩
abbrev S16x8 : Shape := ⟨2, ![16, 8]⟩
abbrev S8 : Shape := ⟨1, ![8]⟩
abbrev S8x3 : Shape := ⟨2, ![8, 3]⟩
abbrev S3 : Shape := ⟨1, ![3]⟩
abbrev S2000000x16 : Shape := ⟨2, ![2000000, 16]⟩
abbrev S1x16 : Shape := ⟨2, ![1, 16]⟩
abbrev S_ : Shape := ⟨0, ![]⟩
abbrev S2000000x8 : Shape := ⟨2, ![2000000, 8]⟩
abbrev S1x8 : Shape := ⟨2, ![1, 8]⟩
abbrev S2000000x3 : Shape := ⟨2, ![2000000, 3]⟩
abbrev S1x3 : Shape := ⟨2, ![1, 3]⟩

abbrev nBuf : Space → Nat
  | .hbm => 25
  | .vmem => 0
  | .smem => 0
  | _ => 0

abbrev bufTy : (tb : Table) → Fin (tcTables nBuf tb) → BufTy
  | .hbm, ⟨0, _⟩ => ⟨S2000000x4, .f32⟩
  | .hbm, ⟨1, _⟩ => ⟨S4x16, .f32⟩
  | .hbm, ⟨2, _⟩ => ⟨S16, .f32⟩
  | .hbm, ⟨3, _⟩ => ⟨S16x8, .f32⟩
  | .hbm, ⟨4, _⟩ => ⟨S8, .f32⟩
  | .hbm, ⟨5, _⟩ => ⟨S8x3, .f32⟩
  | .hbm, ⟨6, _⟩ => ⟨S3, .f32⟩
  | .hbm, ⟨7, _⟩ => ⟨S2000000x16, .f32⟩
  | .hbm, ⟨8, _⟩ => ⟨S1x16, .f32⟩
  | .hbm, ⟨9, _⟩ => ⟨S2000000x16, .f32⟩
  | .hbm, ⟨10, _⟩ => ⟨S2000000x16, .f32⟩
  | .hbm, ⟨11, _⟩ => ⟨S_, .f32⟩
  | .hbm, ⟨12, _⟩ => ⟨S2000000x16, .f32⟩
  | .hbm, ⟨13, _⟩ => ⟨S2000000x16, .f32⟩
  | .hbm, ⟨14, _⟩ => ⟨S2000000x8, .f32⟩
  | .hbm, ⟨15, _⟩ => ⟨S1x8, .f32⟩
  | .hbm, ⟨16, _⟩ => ⟨S2000000x8, .f32⟩
  | .hbm, ⟨17, _⟩ => ⟨S2000000x8, .f32⟩
  | .hbm, ⟨18, _⟩ => ⟨S_, .f32⟩
  | .hbm, ⟨19, _⟩ => ⟨S2000000x8, .f32⟩
  | .hbm, ⟨20, _⟩ => ⟨S2000000x8, .f32⟩
  | .hbm, ⟨21, _⟩ => ⟨S2000000x3, .f32⟩
  | .hbm, ⟨22, _⟩ => ⟨S1x3, .f32⟩
  | .hbm, ⟨23, _⟩ => ⟨S2000000x3, .f32⟩
  | .hbm, ⟨24, _⟩ => ⟨S2000000x3, .f32⟩
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S2000000x16 : S_.BroadcastsInDim S2000000x16 (![] : Fin 0 → Fin S2000000x16.rank)
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  dot_S2000000x4_S4x16_S2000000x16_1_0_0_1_n_n_wf : DotDims.WF S2000000x4 S4x16 S2000000x16 [1] [0] [0] [1] [] []
  dot_S2000000x16_S16x8_S2000000x8_1_0_0_1_n_n_wf : DotDims.WF S2000000x16 S16x8 S2000000x8 [1] [0] [0] [1] [] []
  dot_S2000000x8_S8x3_S2000000x3_1_0_0_1_n_n_wf : DotDims.WF S2000000x8 S8x3 S2000000x3 [1] [0] [0] [1] [] []

variable [Facts₀]

def dot_S2000000x4_S4x16_S2000000x16_1_0_0_1_n_n : DotDims S2000000x4 S4x16 S2000000x16 where
  lhsContracting := [1]
  rhsContracting := [0]
  lhsNonContracting := [0]
  rhsNonContracting := [1]
  lhsBatch := []
  rhsBatch := []
  wf := dot_S2000000x4_S4x16_S2000000x16_1_0_0_1_n_n_wf
def dot_S2000000x16_S16x8_S2000000x8_1_0_0_1_n_n : DotDims S2000000x16 S16x8 S2000000x8 where
  lhsContracting := [1]
  rhsContracting := [0]
  lhsNonContracting := [0]
  rhsNonContracting := [1]
  lhsBatch := []
  rhsBatch := []
  wf := dot_S2000000x16_S16x8_S2000000x8_1_0_0_1_n_n_wf
def dot_S2000000x8_S8x3_S2000000x3_1_0_0_1_n_n : DotDims S2000000x8 S8x3 S2000000x3 where
  lhsContracting := [1]
  rhsContracting := [0]
  lhsNonContracting := [0]
  rhsNonContracting := [1]
  lhsBatch := []
  rhsBatch := []
  wf := dot_S2000000x8_S8x3_S2000000x3_1_0_0_1_n_n_wf

class Facts : Prop extends Facts₀ where

variable [Facts]
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«158046_j3315714752773_2_alg».proof.Proof.LibPlainDot
import proofs.«158046_j3315714752773_2_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibDenseT.lean ====
/-
  GENERAL LEMMAS: an affine layer of a multi-layer perceptron stored feature-major, read one output at a time on the
  extended reals.

  When the samples run along the columns, a layer is W · X + b: W an N×K matrix with one row per output feature, X the
  K×B matrix whose column n is sample n, b an [N, 1] column repeated along the columns. Entry (c, n) of the result is
  ∑ k, W (c, k) · X (k, n) + b c. Since the product of extended reals commutes, this is the affine map `Dense.lin` of
  sample n (column n of X) against the weights read transposed, k ↦ c ↦ W (c, k) — the same number the sample-major
  spelling Xᵀ · Wᵀ + b computes at (n, c). The positive part against a splat zero is pointwise.
-/
import Idealize.ShloMosaic.PureOps.Ideal.Laws
import Idealize.ShloMosaic.Lib.ValueIdx
import Idealize.ShloMosaic.Lib.Pipeline.Value
import proofs.«158046_j3315714752773_2_alg».proof.Proof.LibPlainDot
import proofs.«158046_j3315714752773_2_alg».proof.Proof.LibDense
import proofs.«158046_j3315714752773_2_alg».proof.Proof.LibKeepdims

noncomputable section

open scoped BigOperators

namespace Idealize.ShloMosaic.Dense

open Idealize.ShloMosaic Idealize.ShloMosaic.ValueIdx

variable {N K B : Nat}

/-- A feature-major product into the zero accumulator plus an `[N, 1]` bias column broadcast along the columns: entry
    `(c, n)` is the affine map of column `n` of the right operand against row `c` of the left. -/
theorem matmulT_colBias_apply {φ₁ φ₂ : FTy} (D : DotDims ⟨2, ![N, K]⟩ ⟨2, ![K, B]⟩ ⟨2, ![N, B]⟩) (hD : D = DotDims.plain N K B)
    (w : FVec Ideal ⟨2, ![N, K]⟩ φ₁) (x : FVec Ideal ⟨2, ![K, B]⟩ φ₂) (b : FVec Ideal ⟨2, ![N, 1]⟩ .f32)
    (hb : (⟨2, ![N, 1]⟩ : Shape).Broadcasts ⟨2, ![N, B]⟩) (c : Fin N) (n : Fin B) :
    addf (matmul D none w x (constant (F := Ideal) ⟨2, ![N, B]⟩ .f32 0x00000000#32)) (broadcastTo ⟨2, ![N, B]⟩ b hb) (ix2 c n)
      = lin (fun k => x (ix2 k n)) (fun k c' => w (ix2 c' k)) (fun c' => b (ix2 c' (0 : Fin 1))) c := by
  rw [addf_apply, PlainDot.matmul_zero_apply D hD none w x (ix2 c n), broadcastTo_a1_ab_apply b hb c n]
  show (∑ k : Fin K, w (ix2 c k) * x (ix2 k n)) + b (ix2 c (0 : Fin 1))
    = (∑ k : Fin K, x (ix2 k n) * w (ix2 c k)) + b (ix2 c (0 : Fin 1))
  exact congrArg (· + b (ix2 c (0 : Fin 1))) (Finset.sum_congr rfl fun k _ => mul_comm _ _)

/-- The same followed by the positive part against a splat zero. -/
theorem matmulT_colBias_relu_apply {φ₁ φ₂ : FTy} (D : DotDims ⟨2, ![N, K]⟩ ⟨2, ![K, B]⟩ ⟨2, ![N, B]⟩) (hD : D = DotDims.plain N K B)
    (w : FVec Ideal ⟨2, ![N, K]⟩ φ₁) (x : FVec Ideal ⟨2, ![K, B]⟩ φ₂) (b : FVec Ideal ⟨2, ![N, 1]⟩ .f32)
    (hb : (⟨2, ![N, 1]⟩ : Shape).Broadcasts ⟨2, ![N, B]⟩) (c : Fin N) (n : Fin B) :
    maximumf (addf (matmul D none w x (constant (F := Ideal) ⟨2, ![N, B]⟩ .f32 0x00000000#32)) (broadcastTo ⟨2, ![N, B]⟩ b hb))
        (broadcast ⟨2, ![N, B]⟩ (Scalar.ofBits (F := Ideal) .f32 0x00000000#32)) (ix2 c n)
      = relu (lin (fun k => x (ix2 k n)) (fun k c' => w (ix2 c' k)) (fun c' => b (ix2 c' (0 : Fin 1))) c) := by
  rw [maximumf_apply, matmulT_colBias_apply D hD w x b hb c n]
  rfl

end Idealize.ShloMosaic.Dense

end
-- ==== Proof.MlpSpec.lean ====
/-
  The function both programs compute: a three-layer perceptron applied to each of the 2,000,000 samples.

  For one sample x (four features), with h1 j = max (∑ a, x a · W1 a j + b1 j) 0 for the sixteen first-layer units,
  h2 k = max (∑ j, h1 j · W2 j k + b2 k) 0 for the eight second-layer units, output o is ∑ k, h2 k · W3 k o + b3 o
  (`row`). Entry (n, o) of the result is output o of sample n, row n of the input matrix (`mlp`); the same numbers laid
  out feature-major, entry (o, n), are `mlpT`.
-/
import Idealize.ShloMosaic.PureOps.Ideal.Laws
import Idealize.ShloMosaic.Lib.ValueIdx
import proofs.«158046_j3315714752773_2_alg».proof.Proof.LibDense

noncomputable section

namespace Cert.MlpSpec

open Idealize.ShloMosaic Idealize.ShloMosaic.ValueIdx Idealize.ShloMosaic.Dense

/-- One sample through the three layers: output `o`. -/
def row (x : Fin 4 → EReal) (W1 : Fin 4 → Fin 16 → EReal) (b1 : Fin 16 → EReal) (W2 : Fin 16 → Fin 8 → EReal)
    (b2 : Fin 8 → EReal) (W3 : Fin 8 → Fin 3 → EReal) (b3 : Fin 3 → EReal) (o : Fin 3) : EReal :=
  lin (fun k => relu (lin (fun j => relu (lin x W1 b1 j)) W2 b2 k)) W3 b3 o

/-- The result sample-major: entry `(n, o)` is output `o` of row `n` of `x`. -/
def mlp (x : FVec Ideal ⟨2, ![2000000, 4]⟩ .f32) (W1 : FVec Ideal ⟨2, ![4, 16]⟩ .f32) (b1 : FVec Ideal ⟨1, ![16]⟩ .f32)
    (W2 : FVec Ideal ⟨2, ![16, 8]⟩ .f32) (b2 : FVec Ideal ⟨1, ![8]⟩ .f32) (W3 : FVec Ideal ⟨2, ![8, 3]⟩ .f32)
    (b3 : FVec Ideal ⟨1, ![3]⟩ .f32) : FVec Ideal ⟨2, ![2000000, 3]⟩ .f32 := fun i =>
  row (fun a => x (ix2 (i 0) a)) (fun a j => W1 (ix2 a j)) (fun j => b1 (ix1 j)) (fun j k => W2 (ix2 j k))
    (fun k => b2 (ix1 k)) (fun k o => W3 (ix2 k o)) (fun o => b3 (ix1 o)) (i 1)

/-- The result feature-major: entry `(o, n)` is output `o` of row `n` of `x`. -/
def mlpT (x : FVec Ideal ⟨2, ![2000000, 4]⟩ .f32) (W1 : FVec Ideal ⟨2, ![4, 16]⟩ .f32) (b1 : FVec Ideal ⟨1, ![16]⟩ .f32)
    (W2 : FVec Ideal ⟨2, ![16, 8]⟩ .f32) (b2 : FVec Ideal ⟨1, ![8]⟩ .f32) (W3 : FVec Ideal ⟨2, ![8, 3]⟩ .f32)
    (b3 : FVec Ideal ⟨1, ![3]⟩ .f32) : FVec Ideal ⟨2, ![3, 2000000]⟩ .f32 := fun i =>
  row (fun a => x (ix2 (i 1) a)) (fun a j => W1 (ix2 a j)) (fun j => b1 (ix1 j)) (fun j k => W2 (ix2 j k))
    (fun k => b2 (ix1 k)) (fun k o => W3 (ix2 k o)) (fun o => b3 (ix1 o)) (i 0)

/-- The two layouts hold the same numbers. -/
theorem mlp_eq_mlpT (x : FVec Ideal ⟨2, ![2000000, 4]⟩ .f32) (W1 : FVec Ideal ⟨2, ![4, 16]⟩ .f32) (b1 : FVec Ideal ⟨1, ![16]⟩ .f32)
    (W2 : FVec Ideal ⟨2, ![16, 8]⟩ .f32) (b2 : FVec Ideal ⟨1, ![8]⟩ .f32) (W3 : FVec Ideal ⟨2, ![8, 3]⟩ .f32)
    (b3 : FVec Ideal ⟨1, ![3]⟩ .f32) (n : Fin 2000000) (o : Fin 3) :
    mlp x W1 b1 W2 b2 W3 b3 (ix2 n o) = mlpT x W1 b1 W2 b2 W3 b3 (ix2 o n) := rfl

end Cert.MlpSpec

end
-- ==== Proof.KernelPayload.lean ====
/-
  The kernel body's one stored value, read at an entry.

  The body holds a block of 80,000 samples feature-major: the input block is [4, 80000] (column n is sample n), the
  weights arrive transposed ([16, 4], [8, 16], [3, 8]) and the biases as columns ([16, 1], [8, 1], [3, 1]). Each layer
  is a product into the zero accumulator plus the bias column repeated along the columns, the first two followed by the
  positive part. Entry (o, n) of the stored [3, 80000] value therefore depends on column n of the input block only: it is
  output o of the three-layer perceptron (`MlpSpec.row`) applied to that column, with the weights read transposed back.
-/
import proofs.«158046_j3315714752773_2_alg».proof.Proof.Gen.KernelIdeal.Skeleton
import proofs.«158046_j3315714752773_2_alg».proof.Proof.LibDenseT
import proofs.«158046_j3315714752773_2_alg».proof.Proof.MlpSpec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Idealize.ShloMosaic.Dense
open Cert.MlpSpec

/-- Entry `(o, n)` of the stored value is output `o` of the perceptron on column `n` of the input block. -/
theorem pay_apply (x0 : Vec Ideal S4x80000 .f32) (x1 : Vec Ideal S16x4 .f32) (x2 : Vec Ideal S16x1 .f32)
    (x3 : Vec Ideal S8x16 .f32) (x4 : Vec Ideal S8x1 .f32) (x5 : Vec Ideal S3x8 .f32) (x6 : Vec Ideal S3x1 .f32)
    (o : Fin 3) (n : Fin 80000) :
    k0_pay1 (F := Ideal) x0 x1 x2 x3 x4 x5 x6 (ix2 o n)
      = row (fun a => x0 (ix2 a n)) (fun a j => x1 (ix2 j a)) (fun j => x2 (ix2 j (0 : Fin 1)))
          (fun j k => x3 (ix2 k j)) (fun k => x4 (ix2 k (0 : Fin 1))) (fun k o' => x5 (ix2 o' k))
          (fun o' => x6 (ix2 o' (0 : Fin 1))) o := by
  unfold k0_pay1 row
  simp only [shapeCast_self]
  rw [matmulT_colBias_apply dot_S3x8_S8x80000_S3x80000_1_0_0_1_n_n rfl _ _ _ _ o n]
  refine congrArg (fun f => lin f _ _ o) (funext fun k => ?_)
  rw [matmulT_colBias_relu_apply dot_S8x16_S16x80000_S8x80000_1_0_0_1_n_n rfl _ _ _ _ k n]
  refine congrArg (fun f => relu (lin f _ _ k)) (funext fun j => ?_)
  exact matmulT_colBias_relu_apply dot_S16x4_S4x80000_S16x80000_1_0_0_1_n_n rfl _ _ _ _ j n

/-- The same against the whole arrays: when column `y 1` of the input block is row `i 1` of the sample matrix `X`, the
    weight blocks are the weight matrices transposed and the bias blocks the biases as columns, entry `y` of the stored
    value is entry `i` of the feature-major perceptron, provided `i` and `y` name the same output. -/
theorem pay_eq_mlpT (x0 : Vec Ideal S4x80000 .f32) (x1 : Vec Ideal S16x4 .f32) (x2 : Vec Ideal S16x1 .f32)
    (x3 : Vec Ideal S8x16 .f32) (x4 : Vec Ideal S8x1 .f32) (x5 : Vec Ideal S3x8 .f32) (x6 : Vec Ideal S3x1 .f32)
    (X : FVec Ideal S2000000x4 .f32) (W1 : FVec Ideal S4x16 .f32) (b1 : FVec Ideal S16 .f32) (W2 : FVec Ideal S16x8 .f32)
    (b2 : FVec Ideal S8 .f32) (W3 : FVec Ideal S8x3 .f32) (b3 : FVec Ideal S3 .f32)
    (y : S3x80000.Idx) (i : S3x2000000.Idx) (hi : i 0 = y 0)
    (h0 : ∀ a : Fin 4, x0 (ix2 a (y 1)) = X (ix2 (i 1) a))
    (h1 : ∀ (a : Fin 4) (j : Fin 16), x1 (ix2 j a) = W1 (ix2 a j))
    (h2 : ∀ j : Fin 16, x2 (ix2 j (0 : Fin 1)) = b1 (ix1 j))
    (h3 : ∀ (j : Fin 16) (k : Fin 8), x3 (ix2 k j) = W2 (ix2 j k))
    (h4 : ∀ k : Fin 8, x4 (ix2 k (0 : Fin 1)) = b2 (ix1 k))
    (h5 : ∀ (k : Fin 8) (o : Fin 3), x5 (ix2 o k) = W3 (ix2 k o))
    (h6 : ∀ o : Fin 3, x6 (ix2 o (0 : Fin 1)) = b3 (ix1 o)) :
    k0_pay1 (F := Ideal) x0 x1 x2 x3 x4 x5 x6 y = mlpT X W1 b1 W2 b2 W3 b3 i := by
  refine ((congrArg (k0_pay1 (F := Ideal) x0 x1 x2 x3 x4 x5 x6) (eq_ix2 y)).trans (pay_apply x0 x1 x2 x3 x4 x5 x6 (y 0) (y 1))).trans ?_
  have e0 : (fun a => x0 (ix2 a (y 1))) = fun a => X (ix2 (i 1) a) := funext h0
  have e1 : (fun (a : Fin 4) (j : Fin 16) => x1 (ix2 j a)) = fun a j => W1 (ix2 a j) := funext fun a => funext fun j => h1 a j
  have e2 : (fun j => x2 (ix2 j (0 : Fin 1))) = fun j => b1 (ix1 j) := funext h2
  have e3 : (fun (j : Fin 16) (k : Fin 8) => x3 (ix2 k j)) = fun j k => W2 (ix2 j k) := funext fun j => funext fun k => h3 j k
  have e4 : (fun k => x4 (ix2 k (0 : Fin 1))) = fun k => b2 (ix1 k) := funext h4
  have e5 : (fun (k : Fin 8) (o : Fin 3) => x5 (ix2 o k)) = fun k o => W3 (ix2 k o) := funext fun k => funext fun o => h5 k o
  have e6 : (fun o => x6 (ix2 o (0 : Fin 1))) = fun o => b3 (ix1 o) := funext h6
  unfold mlpT
  rw [e0, e1, e2, e3, e4, e5, e6, hi]

end Cert.KernelIdeal.Body

end
-- ==== Proof.KernelBlocks.lean ====
/-
  What one grid point writes back.

  The region is launched on arrays the host prepared: the sample matrix and the three weight matrices transposed, the
  three biases recast as columns. Grid point t stages columns 80000·t … 80000·t + 79999 of the transposed sample matrix
  (samples 80000·t … of the input) and the whole of the six small arrays, and writes back columns 80000·t … of the
  [3, 2000000] result. Reading each staged block back through the host's transposes and recasts, the block the point
  writes is the matching block of the feature-major perceptron `MlpSpec.mlpT` of the program's arguments.
-/
import proofs.«158046_j3315714752773_2_alg».proof.Proof.Gen.KernelIdeal.Frame
import proofs.«158046_j3315714752773_2_alg».proof.Proof.KernelPayload
import proofs.«158046_j3315714752773_2_alg».proof.Proof.MlpSpec
import proofs.«158046_j3315714752773_2_alg».proof.Proof.LibKeepdims
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

variable (m : (ℓ : Loc nD τ sig) → Buf (Elt Ideal) ℓ) (ρ : Dev nD → PrngReg)

/-! ## The arrays the region is launched on -/

theorem V_v0 (c : Dev nD) : (V m c main_v0 : S4x2000000.Idx → EReal)
    = transpose S4x2000000 [1, 0] (m ((c : Thread nD τ).loc main_arg0)) transposes_S2000000x4_S4x2000000_1_0 := by
  show StableHlo.after hostOps0 (fun b => m (c, b)) (Proc.devRef .tc main_v0) = _
  after_results <;> rfl
theorem V_v1 (c : Dev nD) : (V m c main_v1 : S16x4.Idx → EReal)
    = transpose S16x4 [1, 0] (m ((c : Thread nD τ).loc main_arg1)) transposes_S4x16_S16x4_1_0 := by
  show StableHlo.after hostOps0 (fun b => m (c, b)) (Proc.devRef .tc main_v1) = _
  after_results <;> rfl
theorem V_v2 (c : Dev nD) : (V m c main_v2 : S8x16.Idx → EReal)
    = transpose S8x16 [1, 0] (m ((c : Thread nD τ).loc main_arg3)) transposes_S16x8_S8x16_1_0 := by
  show StableHlo.after hostOps0 (fun b => m (c, b)) (Proc.devRef .tc main_v2) = _
  after_results <;> rfl
theorem V_v3 (c : Dev nD) : (V m c main_v3 : S3x8.Idx → EReal)
    = transpose S3x8 [1, 0] (m ((c : Thread nD τ).loc main_arg5)) transposes_S8x3_S3x8_1_0 := by
  show StableHlo.after hostOps0 (fun b => m (c, b)) (Proc.devRef .tc main_v3) = _
  after_results <;> rfl
theorem V_v4 (c : Dev nD) : (V m c main_v4 : S16x1.Idx → EReal)
    = shapeCast S16x1 (m ((c : Thread nD τ).loc main_arg2)) shapeCasts_S16_S16x1 := by
  show StableHlo.after hostOps0 (fun b => m (c, b)) (Proc.devRef .tc main_v4) = _
  after_results <;> rfl
theorem V_v5 (c : Dev nD) : (V m c main_v5 : S8x1.Idx → EReal)
    = shapeCast S8x1 (m ((c : Thread nD τ).loc main_arg4)) shapeCasts_S8_S8x1 := by
  show StableHlo.after hostOps0 (fun b => m (c, b)) (Proc.devRef .tc main_v5) = _
  after_results <;> rfl
theorem V_v6 (c : Dev nD) : (V m c main_v6 : S3x1.Idx → EReal)
    = shapeCast S3x1 (m ((c : Thread nD τ).loc main_arg6)) shapeCasts_S3_S3x1 := by
  show StableHlo.after hostOps0 (fun b => m (c, b)) (Proc.devRef .tc main_v6) = _
  after_results <;> rfl

/-! ## Where each window's block sits -/

/-- The block indices over the grid: the sample block and the result block move along the columns with the point, the six
    small arrays stay whole. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Column `n` of the sample block at point `t` is sample `80000·t + n`. -/
theorem iblk0_apply (c : Dev nD) (t : Fin cfg0.N) (a : Fin 4) (n : Fin 80000) (N : Fin 2000000)
    (hN : N.val = t.val * 80000 + n.val) :
    (iblk m c 0 t : Vec Ideal S4x80000 .f32) (ix2 a n) = (m ((c : Thread nD τ).loc main_arg0) : S2000000x4.Idx → EReal) (ix2 N a) := by
  obtain ⟨e0, e1, -⟩ := idx_facts t
  show V m c main_v0 (((cfg0.win 0).blk t).view.emb (ix2 a n)) = _
  rw [V_v0]
  refine transpose_apply [1, 0] _ _ _ (ix2 N a) fun b => ?_
  match b with
  | ⟨0, _⟩ => show a.val = win0_0.index t (0 : Fin 2) * 4 + 1 * a.val; rw [e0]; omega
  | ⟨1, _⟩ => show N.val = win0_0.index t (1 : Fin 2) * 80000 + 1 * n.val; rw [e1, hN]; omega

/-- The first weight block is the first weight matrix transposed. -/
theorem iblk1_apply (c : Dev nD) (t : Fin cfg0.N) (a : Fin 4) (j : Fin 16) :
    (iblk m c 1 t : Vec Ideal S16x4 .f32) (ix2 j a) = (m ((c : Thread nD τ).loc main_arg1) : S4x16.Idx → EReal) (ix2 a j) := by
  obtain ⟨-, -, e0, e1, -⟩ := idx_facts t
  show V m c main_v1 (((cfg0.win 1).blk t).view.emb (ix2 j a)) = _
  rw [V_v1]
  refine transpose_apply [1, 0] _ _ _ (ix2 a j) fun b => ?_
  match b with
  | ⟨0, _⟩ => show j.val = win0_1.index t (0 : Fin 2) * 16 + 1 * j.val; rw [e0]; omega
  | ⟨1, _⟩ => show a.val = win0_1.index t (1 : Fin 2) * 4 + 1 * a.val; rw [e1]; omega

/-- The second weight block is the second weight matrix transposed. -/
theorem iblk3_apply (c : Dev nD) (t : Fin cfg0.N) (j : Fin 16) (k : Fin 8) :
    (iblk m c 3 t : Vec Ideal S8x16 .f32) (ix2 k j) = (m ((c : Thread nD τ).loc main_arg3) : S16x8.Idx → EReal) (ix2 j k) := by
  obtain ⟨-, -, -, -, -, -, e0, e1, -⟩ := idx_facts t
  show V m c main_v2 (((cfg0.win 3).blk t).view.emb (ix2 k j)) = _
  rw [V_v2]
  refine transpose_apply [1, 0] _ _ _ (ix2 j k) fun b => ?_
  match b with
  | ⟨0, _⟩ => show k.val = win0_3.index t (0 : Fin 2) * 8 + 1 * k.val; rw [e0]; omega
  | ⟨1, _⟩ => show j.val = win0_3.index t (1 : Fin 2) * 16 + 1 * j.val; rw [e1]; omega

/-- The third weight block is the third weight matrix transposed. -/
theorem iblk5_apply (c : Dev nD) (t : Fin cfg0.N) (k : Fin 8) (o : Fin 3) :
    (iblk m c 5 t : Vec Ideal S3x8 .f32) (ix2 o k) = (m ((c : Thread nD τ).loc main_arg5) : S8x3.Idx → EReal) (ix2 k o) := by
  obtain ⟨-, -, -, -, -, -, -, -, -, -, e0, e1, -⟩ := idx_facts t
  show V m c main_v3 (((cfg0.win 5).blk t).view.emb (ix2 o k)) = _
  rw [V_v3]
  refine transpose_apply [1, 0] _ _ _ (ix2 k o) fun b => ?_
  match b with
  | ⟨0, _⟩ => show o.val = win0_5.index t (0 : Fin 2) * 3 + 1 * o.val; rw [e0]; omega
  | ⟨1, _⟩ => show k.val = win0_5.index t (1 : Fin 2) * 8 + 1 * k.val; rw [e1]; omega

/-- The first bias block is the first bias as a column. -/
theorem iblk2_apply (c : Dev nD) (t : Fin cfg0.N) (j : Fin 16) :
    (iblk m c 2 t : Vec Ideal S16x1 .f32) (ix2 j (0 : Fin 1)) = (m ((c : Thread nD τ).loc main_arg2) : S16.Idx → EReal) (ix1 j) := by
  obtain ⟨-, -, -, -, e0, e1, -⟩ := idx_facts t
  show V m c main_v4 (((cfg0.win 2).blk t).view.emb (ix2 j (0 : Fin 1))) = _
  rw [V_v4]
  refine shapeCast_apply _ _ _ (ix1 j) ?_
  rw [Shape.rowMajor_val_two, Shape.rowMajor_val_one]
  show j.val = (win0_2.index t (0 : Fin 2) * 16 + 1 * j.val) * 1 + (win0_2.index t (1 : Fin 2) * 1 + 1 * 0)
  rw [e0, e1]; omega

/-- The second bias block is the second bias as a column. -/
theorem iblk4_apply (c : Dev nD) (t : Fin cfg0.N) (k : Fin 8) :
    (iblk m c 4 t : Vec Ideal S8x1 .f32) (ix2 k (0 : Fin 1)) = (m ((c : Thread nD τ).loc main_arg4) : S8.Idx → EReal) (ix1 k) := by
  obtain ⟨-, -, -, -, -, -, -, -, e0, e1, -⟩ := idx_facts t
  show V m c main_v5 (((cfg0.win 4).blk t).view.emb (ix2 k (0 : Fin 1))) = _
  rw [V_v5]
  refine shapeCast_apply _ _ _ (ix1 k) ?_
  rw [Shape.rowMajor_val_two, Shape.rowMajor_val_one]
  show k.val = (win0_4.index t (0 : Fin 2) * 8 + 1 * k.val) * 1 + (win0_4.index t (1 : Fin 2) * 1 + 1 * 0)
  rw [e0, e1]; omega

/-- The third bias block is the third bias as a column. -/
theorem iblk6_apply (c : Dev nD) (t : Fin cfg0.N) (o : Fin 3) :
    (iblk m c 6 t : Vec Ideal S3x1 .f32) (ix2 o (0 : Fin 1)) = (m ((c : Thread nD τ).loc main_arg6) : S3.Idx → EReal) (ix1 o) := by
  obtain ⟨-, -, -, -, -, -, -, -, -, -, -, -, e0, e1, -⟩ := idx_facts t
  show V m c main_v6 (((cfg0.win 6).blk t).view.emb (ix2 o (0 : Fin 1))) = _
  rw [V_v6]
  refine shapeCast_apply _ _ _ (ix1 o) ?_
  rw [Shape.rowMajor_val_two, Shape.rowMajor_val_one]
  show o.val = (win0_6.index t (0 : Fin 2) * 3 + 1 * o.val) * 1 + (win0_6.index t (1 : Fin 2) * 1 + 1 * 0)
  rw [e0, e1]; omega

/-! ## The block a point writes back -/

theorem hz : (![0, 0] : Fin 2 → Nat) = fun _ => 0 := funext fun a => by fin_cases a <;> rfl

/-- The result array of the region, feature-major, as a function of the program's arguments. -/
abbrev outT (c : Dev nD) : S3x2000000.Idx → EReal :=
  mlpT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of `outT`. -/
theorem flushed_eq (c : Dev nD) (t : Fin cfg0.N) :
    (dats m 0 c).flushed 7 t = ((cfg0.win 7).blk t).view.read (Elt Ideal) (outT m c) := by
  show (cfg0.win 7).cut (grid0.coords t) ((dats m 0 c).after 7 t) = _
  rw [after0_7]
  unfold out0_7
  rw [View.canon_unit_zero hz]
  simp only [View.ld_unit_zero (S := S4x80000) hz, View.ld_unit_zero (S := S16x4) hz, View.ld_unit_zero (S := S16x1) hz,
    View.ld_unit_zero (S := S8x16) hz, View.ld_unit_zero (S := S8x1) hz, View.ld_unit_zero (S := S3x8) hz,
    View.ld_unit_zero (S := S3x1) hz]
  obtain ⟨-, -, -, -, -, -, -, -, -, -, -, -, -, -, e0, e1⟩ := idx_facts t
  funext y
  show k0_pay1 (F := Ideal) (iblk m c 0 t) (iblk m c 1 t) (iblk m c 2 t) (iblk m c 3 t) (iblk m c 4 t) (iblk m c 5 t) (iblk m c 6 t) y
    = outT m c (((cfg0.win 7).blk t).view.emb y)
  have hy1 : (y 1).val < 80000 := (y 1).isLt
  have hcol : ((((cfg0.win 7).blk t).view.emb y) 1).val = t.val * 80000 + (y 1).val := by
    show win0_7.index t (1 : Fin 2) * 80000 + 1 * (y 1).val = _; rw [e1]; omega
  refine Body.pay_eq_mlpT (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) y (((cfg0.win 7).blk t).view.emb y) ?_ ?_ ?_ ?_ ?_ ?_ ?_ ?_
  · apply Fin.ext
    show win0_7.index t (0 : Fin 2) * 3 + 1 * (y 0).val = (y 0).val
    rw [e0]; omega
  · intro a; exact iblk0_apply m c t a (y 1) _ hcol
  · intro a j; exact iblk1_apply m c t a j
  · intro j; exact iblk2_apply m c t j
  · intro j k; exact iblk3_apply m c t j k
  · intro k; exact iblk4_apply m c t k
  · intro k o; exact iblk5_apply m c t k o
  · intro o; exact iblk6_apply m c t o

end Cert.KernelIdeal.Hand

end
-- ==== Proof.KernelValue.lean ====
/-
  The kernel's result as one function of its arguments.

  The 25 grid points write back the 25 column blocks of the [3, 2000000] array, which tile it: column N lies in block
  N / 80000. So after the region the array holds the feature-major perceptron everywhere, and the one host operation
  that follows, a transpose, turns it into the sample-major perceptron `MlpSpec.mlp` of the program's arguments.
-/
import proofs.«158046_j3315714752773_2_alg».proof.Proof.Gen.KernelIdeal.Frame
import proofs.«158046_j3315714752773_2_alg».proof.Proof.KernelBlocks
import proofs.«158046_j3315714752773_2_alg».proof.Proof.MlpSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

variable (m : (ℓ : Loc nD τ sig) → Buf (Elt Ideal) ℓ) (ρ : Dev nD → PrngReg)

/-- An entry of the result array lies in point `t`'s block iff each coordinate lies in the block's range. -/
theorem mem_blk (t : Fin cfg0.N) (i : S3x2000000.Idx) :
    i ∈ ((cfg0.win 7).blk t).view.set ↔ ∀ a : Fin 2, win0_7.index t a * S3x80000.size a ≤ (i a).val ∧ (i a).val < win0_7.index t a * S3x80000.size a + S3x80000.size a := by
  show i ∈ ((View.whole main_v7).slice (win0_7.rect t)).set ↔ _
  rw [View.set_slice_whole, Rect.mem_set_unit]
  exact Iff.rfl

/-- Every entry of the result array is written back by some point: column `N` by point `N / 80000`. -/
theorem cover (i : S3x2000000.Idx) : ∃ t : Fin cfg0.N, (cfg0.win 7).flush t = true ∧ i ∈ ((cfg0.win 7).blk t).view.set := by
  have hi0 : (i 0).val < 3 := (i 0).isLt
  have hi1 : (i 1).val < 2000000 := (i 1).isLt
  let t : Fin cfg0.N := ⟨(i 1).val / 80000, by rw [show cfg0.N = 25 from N_0]; omega⟩
  obtain ⟨-, -, -, -, -, -, -, -, -, -, -, -, -, -, e0, e1⟩ := idx_facts t
  have ht : t.val = (i 1).val / 80000 := rfl
  refine ⟨t, flush0_7 t, ?_⟩
  rw [mem_blk]
  intro a
  match a with
  | ⟨0, _⟩ => show win0_7.index t (0 : Fin 2) * 3 ≤ (i 0).val ∧ (i 0).val < win0_7.index t (0 : Fin 2) * 3 + 3; rw [e0]; omega
  | ⟨1, _⟩ => show win0_7.index t (1 : Fin 2) * 80000 ≤ (i 1).val ∧ (i 1).val < win0_7.index t (1 : Fin 2) * 80000 + 80000; rw [e1, ht]; omega

/-- The result array after the region is the feature-major perceptron. -/
theorem final (c : Dev nD) : (dats m 0 c).arrAt 7 cfg0.N = outT m c :=
  (dats m 0 c).arrAt_eq_of_cover 7 (outT m c) (fun t _ => flushed_eq m c t) cover

/-- The perceptron of the program's arguments, sample-major. -/
abbrev out (c : Dev nD) : S2000000x3.Idx → EReal :=
  mlp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The host's transpose after the region leaves the sample-major perceptron in the program's result. -/
theorem tail_eq (c : Dev nD) : Pipeline.afterTail₀ cfgs (dats m) 0 (V0 m) [hostOps1] c main_v8 = out m c := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7) = outT m c :=
    (Pipeline.withArrays_arr spec0 launch0.win.arr_inj c _ _ 7).trans (final m c)
  rw [hw]
  funext i
  obtain ⟨n, o, rfl⟩ : ∃ (n : Fin 2000000) (o : Fin 3), i = ix2 n o := ⟨i 0, i 1, eq_ix2 i⟩
  exact (transpose_ix2_apply _ _ n o).trans (mlp_eq_mlpT _ _ _ _ _ _ _ n o).symm

/-- The run, read: the program's result at the perceptron of the arguments, the arguments unchanged. -/
theorem run : θ_run defs (onTc (τ := τ) (main (F := Ideal))) ⟨m, fun _ => 0, ρ⟩ fun r => ∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefValue.lean ====
/-
  The reference's result is the perceptron, sample-major.

  The reference applies each layer to the whole [2000000, K] matrix: a product with the [K, N] weights, plus the [N]
  bias repeated down the rows, the first two layers followed by the positive part against a repeated scalar zero.
  Entry (n, c) of a layer depends on row n of its input only, so entry (n, o) of the result is output o of the
  three layers applied to row n of the input (`MlpSpec.mlp`).
-/
import proofs.«158046_j3315714752773_2_alg».proof.Proof.Gen.ReferenceIdeal.Run
import proofs.«158046_j3315714752773_2_alg».proof.Proof.LibDense
import proofs.«158046_j3315714752773_2_alg».proof.Proof.MlpSpec
import Idealize.ShloMosaic.Lib.ValueIdx

noncomputable section

namespace Cert.ReferenceIdeal.RefValue

open Cert.ReferenceIdeal Cert.ReferenceIdeal.Gen Idealize.ShloMosaic Idealize.ShloMosaic.ValueIdx Idealize.ShloMosaic.Dense
open Cert.MlpSpec

/-- The reference's composed term, entry by entry, is the perceptron of the matching row. -/
theorem result_eq (x : FVec Ideal S2000000x4 .f32) (W1 : FVec Ideal S4x16 .f32) (b1 : FVec Ideal S16 .f32)
    (W2 : FVec Ideal S16x8 .f32) (b2 : FVec Ideal S8 .f32) (W3 : FVec Ideal S8x3 .f32) (b3 : FVec Ideal S3 .f32) :
    addf (Host.dotGeneral dot_S2000000x8_S8x3_S2000000x3_1_0_0_1_n_n none (maximumf (addf (Host.dotGeneral dot_S2000000x16_S16x8_S2000000x8_1_0_0_1_n_n none (maximumf (addf (Host.dotGeneral dot_S2000000x4_S4x16_S2000000x16_1_0_0_1_n_n none x W1) (broadcastInDim S2000000x16 ![0, 1] bcast_S1x16_S2000000x16_0_1 (broadcastInDim S1x16 ![1] bcast_S16_S1x16_1 b1))) (broadcastInDim S2000000x16 ![] bcast_S_S2000000x16 (constant S_ .f32 0x00000000#32))) W2) (broadcastInDim S2000000x8 ![0, 1] bcast_S1x8_S2000000x8_0_1 (broadcastInDim S1x8 ![1] bcast_S8_S1x8_1 b2))) (broadcastInDim S2000000x8 ![] bcast_S_S2000000x8 (constant S_ .f32 0x00000000#32))) W3) (broadcastInDim S2000000x3 ![0, 1] bcast_S1x3_S2000000x3_0_1 (broadcastInDim S1x3 ![1] bcast_S3_S1x3_1 b3))
      = mlp x W1 b1 W2 b2 W3 b3 := by
  funext i
  obtain ⟨n, o, rfl⟩ : ∃ (n : Fin 2000000) (o : Fin 3), i = ix2 n o := ⟨i 0, i 1, eq_ix2 i⟩
  unfold mlp row
  rw [hostDot_bias_apply dot_S2000000x8_S8x3_S2000000x3_1_0_0_1_n_n rfl _ _ _ _ _ n o]
  refine congrArg (fun f => lin f _ _ o) (funext fun k => ?_)
  rw [hostDot_bias_relu_apply dot_S2000000x16_S16x8_S2000000x8_1_0_0_1_n_n rfl _ _ _ _ _ _ n k]
  refine congrArg (fun f => relu (lin f _ _ k)) (funext fun j => ?_)
  exact hostDot_bias_relu_apply dot_S2000000x4_S4x16_S2000000x16_1_0_0_1_n_n rfl _ _ _ _ _ _ n j

end Cert.ReferenceIdeal.RefValue

end
-- ==== Proof.lean ====
/-
  A three-layer perceptron over 2,000,000 samples of four features: the kernel against its reference, on the extended reals.

  Both programs compute, for each sample x, the outputs ∑ k, h2 k · W3 k o + b3 o with
  h2 k = max (∑ j, h1 j · W2 j k + b2 k) 0 and h1 j = max (∑ a, x a · W1 a j + b1 j) 0 (`MlpSpec.row`).
  The reference does so sample-major, layer by layer on the whole matrix (`RefValue.result_eq`). The kernel transposes
  the samples and the weights, recasts the biases as columns, computes each block of 80,000 samples feature-major as
  Wᵀ · Xᵀ + b (`Body.pay_apply`), writes the 25 blocks side by side (`Hand.flushed_eq`, `Hand.final`) and transposes the
  result back (`Hand.tail_eq`). The two agree entry by entry because the product of extended reals commutes: the kernel
  multiplies weight by activation, the reference activation by weight. No sum is reordered, nothing is distributed or
  cancelled, so the inputs' finiteness is not used.

  The three frames are the generated ones (the reference's is its generated run with the result dropped), and the kernel's
  idealization rewrote nothing, so `preserves` is trivial.
-/
import proofs.«158046_j3315714752773_2_alg».proof.Defs
import proofs.«158046_j3315714752773_2_alg».proof.Proof.Gen.Kernel
import proofs.«158046_j3315714752773_2_alg».proof.Proof.Gen.Kernel.Frame
import proofs.«158046_j3315714752773_2_alg».proof.Proof.Gen.KernelIdeal
import proofs.«158046_j3315714752773_2_alg».proof.Proof.Gen.KernelIdeal.Frame
import proofs.«158046_j3315714752773_2_alg».proof.Proof.Gen.ReferenceIdeal
import proofs.«158046_j3315714752773_2_alg».proof.Proof.Gen.Pre_finite_inputs
import proofs.«158046_j3315714752773_2_alg».proof.Proof.Gen.ReferenceIdeal.Run
import proofs.«158046_j3315714752773_2_alg».proof.Proof.KernelValue
import proofs.«158046_j3315714752773_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the perceptron of the (agreeing) arguments in the result. -/
theorem algebraic : Cert.algebraic_KernelIdeal_ReferenceIdeal := by
  intro m ρ m' ρ' _ hagree
  refine ⟨fun c => Cert.KernelIdeal.Hand.out m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.RefValue.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
